-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x3 : Shape := ⟨2, ![2097152, 3]⟩
abbrev S64x3 : Shape := ⟨2, ![64, 3]⟩
abbrev S64x64 : Shape := ⟨2, ![64, 64]⟩
abbrev S16x64 : Shape := ⟨2, ![16, 64]⟩
abbrev S_ : Shape := ⟨0, ![]⟩

class Facts : Prop where
  bcast_S_S2097152x3 : S_.BroadcastsInDim S2097152x3 (![] : Fin 0 → Fin S2097152x3.rank)
  reducesTo_S2097152x3_S_d0_1 : S2097152x3.ReducesTo [0, 1] S_
  h_S_ : 0 < S_.numel
  bcast_S_S64x3 : S_.BroadcastsInDim S64x3 (![] : Fin 0 → Fin S64x3.rank)
  reducesTo_S64x3_S_d0_1 : S64x3.ReducesTo [0, 1] S_
  bcast_S_S64x64 : S_.BroadcastsInDim S64x64 (![] : Fin 0 → Fin S64x64.rank)
  reducesTo_S64x64_S_d0_1 : S64x64.ReducesTo [0, 1] S_
  bcast_S_S16x64 : S_.BroadcastsInDim S16x64 (![] : Fin 0 → Fin S16x64.rank)
  reducesTo_S16x64_S_d0_1 : S16x64.ReducesTo [0, 1] S_

variable [Facts]

def fn_part1 {F : FTy → Type} [FloatOps F] (main_arg4 : FVec F S16x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S16x64 .f32 := Host.absf main_arg4
  let main_cst_6 : FVec F S_ .f32 := constant S_ .f32 0x7F800000#32
  let main_v20 : FVec F S16x64 .f32 := broadcastInDim S16x64 ![] bcast_S_S16x64 main_cst_6
  let main_v21 : IVec S16x64 1 := cmpf .olt main_v19 main_v20
  let main_c_7 : IVec S_ 1 := constantI S_ 1 1#1
  let main_v22 : IVec S_ 1 := (fun x v => Host.reduce IntOp.andi x v reducesTo_S16x64_S_d0_1 h_S_) main_v21 main_c_7
  let main_v23 : IVec S_ 1 := andi main_v18 main_v22
  main_v23

def fn {F : FTy → Type} [FloatOps F] (main_arg0 : FVec F S2097152x3 .f32) (main_arg1 : FVec F S64x3 .f32) (main_arg2 : FVec F S64x64 .f32) (main_arg3 : FVec F S64x64 .f32) (main_arg4 : FVec F S16x64 .f32) : IVec S_ 1 :=
  let main_v0 : FVec F S2097152x3 .f32 := Host.absf main_arg0
  let main_cst : FVec F S_ .f32 := constant S_ .f32 0x7F800000#32
  let main_v1 : FVec F S2097152x3 .f32 := broadcastInDim S2097152x3 ![] bcast_S_S2097152x3 main_cst
  let main_v2 : IVec S2097152x3 1 := cmpf .olt main_v0 main_v1
  let main_c : IVec S_ 1 := constantI S_ 1 1#1
  let main_v3 : IVec S_ 1 := (fun x v => Host.reduce IntOp.andi x v reducesTo_S2097152x3_S_d0_1 h_S_) main_v2 main_c
  let main_v4 : FVec F S64x3 .f32 := Host.absf main_arg1
  let main_cst_0 : FVec F S_ .f32 := constant S_ .f32 0x7F800000#32
  let main_v5 : FVec F S64x3 .f32 := broadcastInDim S64x3 ![] bcast_S_S64x3 main_cst_0
  let main_v6 : IVec S64x3 1 := cmpf .olt main_v4 main_v5
  let main_c_1 : IVec S_ 1 := constantI S_ 1 1#1
  let main_v7 : IVec S_ 1 := (fun x v => Host.reduce IntOp.andi x v reducesTo_S64x3_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_v13 main_v16
-- ==== Kernel.lean ====
abbrev S2097152x3 : Shape := ⟨2, ![2097152, 3]⟩
abbrev S64x3 : Shape := ⟨2, ![64, 3]⟩
abbrev S64x64 : Shape := ⟨2, ![64, 64]⟩
abbrev S16x64 : Shape := ⟨2, ![16, 64]⟩
abbrev S3x2097152 : Shape := ⟨2, ![3, 2097152]⟩
abbrev S1x64 : Shape := ⟨2, ![1, 64]⟩
abbrev S1x2097152 : Shape := ⟨2, ![1, 2097152]⟩
abbrev S3x32768 : Shape := ⟨2, ![3, 32768]⟩
abbrev S1x32768 : Shape := ⟨2, ![1, 32768]⟩
abbrev S64x32768 : Shape := ⟨2, ![64, 32768]⟩
abbrev S2097152x1 : Shape := ⟨2, ![2097152, 1]⟩

abbrev nBuf : Space → Nat
  | .hbm => 13
  | .vmem => 8
  | .smem => 0
  | _ => 0

abbrev bufTy : (tb : Table) → Fin (tcTables nBuf tb) → BufTy
  | .hbm, ⟨0, _⟩ => ⟨S2097152x3, .f32⟩
  | .hbm, ⟨1, _⟩ => ⟨S64x3, .f32⟩
  | .hbm, ⟨2, _⟩ => ⟨S64x64, .f32⟩
  | .hbm, ⟨3, _⟩ => ⟨S64x64, .f32⟩
  | .hbm, ⟨4, _⟩ => ⟨S16x64, .f32⟩
  | .hbm, ⟨5, _⟩ => ⟨S3x2097152, .f32⟩
  | .hbm, ⟨6, _⟩ => ⟨S1x64, .f32⟩
  | .hbm, ⟨7, _⟩ => ⟨S64x3, .bf16⟩
  | .hbm, ⟨8, _⟩ => ⟨S64x64, .bf16⟩
  | .hbm, ⟨9, _⟩ => ⟨S64x64, .bf16⟩
  | .hbm, ⟨10, _⟩ => ⟨S1x64, .bf16⟩
  | .hbm, ⟨11, _⟩ => ⟨S1x2097152, .f32⟩
  | .hbm, ⟨12, _⟩ => ⟨S2097152x1, .f32⟩
  | .local _ .vmem, ⟨0, _⟩ => ⟨S3x32768, .f32⟩
  | .local _ .vmem, ⟨1, _⟩ => ⟨S3x32768, .f32⟩
  | .local _ .vmem, ⟨2, _⟩ => ⟨S64x3, .bf16⟩
  | .local _ .vmem, ⟨3, _⟩ => ⟨S64x64, .bf16⟩
  | .local _ .vmem, ⟨4, _⟩ => ⟨S64x64, .bf16⟩
  | .local _ .vmem, ⟨5, _⟩ => ⟨S1x64, .bf16⟩
  | .local _ .vmem, ⟨6, _⟩ => ⟨S1x32768, .f32⟩
  | .local _ .vmem, ⟨7, _⟩ => ⟨S1x32768, .f32⟩
  | _, _ => ⟨S2097152x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x3 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x32768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S2097152x3_S3x2097152_1_0 : S2097152x3.Transposes [1, 0] S3x2097152
  slices_S16x64_S1x64_0_0 : S16x64.Slices ![0, 0] S1x64
  bitsLt_bf16_f32 : FTy.bits .bf16 < FTy.bits .f32
  inb_S3x32768_S3x32768_0_0 : ∀ a, (![0, 0] : Fin 2 → Nat) a + S3x32768.size a ≤ S3x32768.size a
  h_S3x32768 : 0 < S3x32768.numel
  shapeCasts_S3x32768_S3x32768 : S3x32768.ShapeCasts S3x32768
  inb_S64x3_S64x3_0_0 : ∀ a, (![0, 0] : Fin 2 → Nat) a + S64x3.size a ≤ S64x3.size a
  h_S64x3 : 0 < S64x3.numel
  shapeCasts_S64x3_S64x3 : S64x3.ShapeCasts S64x3
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1x32768_S1x32768_0_0 : ∀ a, (![0, 0] : Fin 2 → Nat) a + S1x32768.size a ≤ S1x32768.size a
  h_S1x32768 : 0 < S1x32768.numel
  shapeCasts_S1x2097152_S2097152x1 : S1x2097152.ShapeCasts S2097152x1
  dot_S64x3_S3x32768_S64x32768_1_0_0_1_n_n_wf : DotDims.WF S64x3 S3x32768 S64x32768 [1] [0] [0] [1] [] []
  dot_S64x64_S64x32768_S64x32768_1_0_0_1_n_n_wf : DotDims.WF S64x64 S64x32768 S64x32768 [1] [0] [0] [1] [] []
  dot_S1x64_S64x32768_S1x32768_1_0_0_1_n_n_wf : DotDims.WF S1x64 S64x32768 S1x32768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x32768.size a ≤ S3x2097152.size a
  hwx0_0 : ∀ i : grid0.Coords, EltTy.bits .f32 = 32 ∨ (Rect.block (s := S3x2097152) S3x32768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x3.size a ≤ S64x3.size a
  hwx0_1 : ∀ i : grid0.Coords, EltTy.bits .bf16 = 32 ∨ (Rect.block (s := S64x3) S64x3.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .bf16 = 32 ∨ (Rect.block (s := S64x64) S64x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .bf16 = 32 ∨ (Rect.block (s := S1x64) S1x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x32768.size a ≤ S1x2097152.size a
  hwx0_5 : ∀ i : grid0.Coords, EltTy.bits .f32 = 32 ∨ (Rect.block (s := S1x2097152) S1x32768.size (cc0_transform_5 i) (hinb0_5 i)).WholeWords (EltTy.packing .f32)

variable [Facts₀]

def dot_S64x3_S3x32768_S64x32768_1_0_0_1_n_n : DotDims S64x3 S3x32768 S64x32768 where
  lhsContracting := [1]
  rhsContracting := [0]
  lhsNonContracting := [0]
  rhsNonContracting := [1]
  lhsBatch := []
  rhsBatch := []
  wf := dot_S64x3_S3x32768_S64x32768_1_0_0_1_n_n_wf
def dot_S64x64_S64x32768_S64x32768_1_0_0_1_n_n : DotDims S64x64 S64x32768 S64x32768 where
  lhsContracting := [1]
  rhsContracting := [0]
  lhsNonContracting := [0]
  rhsNonContracting := [1]
  lhsBatch := []
  rhsBatch := []
  wf := dot_S64x64_S64x32768_S64x32768_1_0_0_1_n_n_wf
def dot_S1x64_S64x32768_S1x32768_1_0_0_1_n_n : DotDims S1x64 S64x32768 S1x32768 where
  lhsContracting := [1]
  rhsContracting := [0]
  lhsNonContracting := [0]
  rhsNonContracting := [1]
  lhsBatch := []
  rhsBatch := []
  wf := dot_S1x64_S64x32768_S1x32768_1_0_0_1_n_n_wf

abbrev win0_0 : Pipeline.Window sig grid0 :=
  Pipeline.Window.ofSpec (Memref.whole main_v0) S3x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S64x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x32768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2097152x3 : Shape := ⟨2, ![2097152, 3]⟩
abbrev S64x3 : Shape := ⟨2, ![64, 3]⟩
abbrev S64x64 : Shape := ⟨2, ![64, 64]⟩
abbrev S16x64 : Shape := ⟨2, ![16, 64]⟩
abbrev S3x64 : Shape := ⟨2, ![3, 64]⟩
abbrev S2097152x64 : Shape := ⟨2, ![2097152, 64]⟩
abbrev S_ : Shape := ⟨0, ![]⟩
abbrev S64x16 : Shape := ⟨2, ![64, 16]⟩
abbrev S2097152x16 : Shape := ⟨2, ![2097152, 16]⟩
abbrev S2097152x1 : Shape := ⟨2, ![2097152, 1]⟩

abbrev nBuf : Space → Nat
  | .hbm => 23
  | .vmem => 0
  | .smem => 0
  | _ => 0

abbrev bufTy : (tb : Table) → Fin (tcTables nBuf tb) → BufTy
  | .hbm, ⟨0, _⟩ => ⟨S2097152x3, .f32⟩
  | .hbm, ⟨1, _⟩ => ⟨S64x3, .f32⟩
  | .hbm, ⟨2, _⟩ => ⟨S64x64, .f32⟩
  | .hbm, ⟨3, _⟩ => ⟨S64x64, .f32⟩
  | .hbm, ⟨4, _⟩ => ⟨S16x64, .f32⟩
  | .hbm, ⟨5, _⟩ => ⟨S3x64, .f32⟩
  | .hbm, ⟨6, _⟩ => ⟨S2097152x64, .f32⟩
  | .hbm, ⟨7, _⟩ => ⟨S_, .f32⟩
  | .hbm, ⟨8, _⟩ => ⟨S2097152x64, .f32⟩
  | .hbm, ⟨9, _⟩ => ⟨S2097152x64, .f32⟩
  | .hbm, ⟨10, _⟩ => ⟨S64x64, .f32⟩
  | .hbm, ⟨11, _⟩ => ⟨S2097152x64, .f32⟩
  | .hbm, ⟨12, _⟩ => ⟨S_, .f32⟩
  | .hbm, ⟨13, _⟩ => ⟨S2097152x64, .f32⟩
  | .hbm, ⟨14, _⟩ => ⟨S2097152x64, .f32⟩
  | .hbm, ⟨15, _⟩ => ⟨S64x64, .f32⟩
  | .hbm, ⟨16, _⟩ => ⟨S2097152x64, .f32⟩
  | .hbm, ⟨17, _⟩ => ⟨S_, .f32⟩
  | .hbm, ⟨18, _⟩ => ⟨S2097152x64, .f32⟩
  | .hbm, ⟨19, _⟩ => ⟨S2097152x64, .f32⟩
  | .hbm, ⟨20, _⟩ => ⟨S64x16, .f32⟩
  | .hbm, ⟨21, _⟩ => ⟨S2097152x16, .f32⟩
  | .hbm, ⟨22, _⟩ => ⟨S2097152x1, .f32⟩
  | _, _ => ⟨S2097152x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_cst : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call2_cst : Ref sig .tc := ⟨.hbm, 17, rfl⟩
abbrev main_call2_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]

class Facts₀ : Prop where
  transposes_S64x3_S3x64_1_0 : S64x3.Transposes [1, 0] S3x64
  bcast_S_S2097152x64 : S_.BroadcastsInDim S2097152x64 (![] : Fin 0 → Fin S2097152x64.rank)
  transposes_S64x64_S64x64_1_0 : S64x64.Transposes [1, 0] S64x64
  transposes_S16x64_S64x16_1_0 : S16x64.Transposes [1, 0] S64x16
  slices_S2097152x16_S2097152x1_0_0 : S2097152x16.Slices ![0, 0] S2097152x1
  dot_S2097152x3_S3x64_S2097152x64_1_0_0_1_n_n_wf : DotDims.WF S2097152x3 S3x64 S2097152x64 [1] [0] [0] [1] [] []
  dot_S2097152x64_S64x64_S2097152x64_1_0_0_1_n_n_wf : DotDims.WF S2097152x64 S64x64 S2097152x64 [1] [0] [0] [1] [] []
  dot_S2097152x64_S64x16_S2097152x16_1_0_0_1_n_n_wf : DotDims.WF S2097152x64 S64x16 S2097152x16 [1] [0] [0] [1] [] []

variable [Facts₀]

def dot_S2097152x3_S3x64_S2097152x64_1_0_0_1_n_n : DotDims S2097152x3 S3x64 S2097152x64 where
  lhsContracting := [1]
  rhsContracting := [0]
  lhsNonContracting := [0]
  rhsNonContracting := [1]
  lhsBatch := []
  rhsBatch := []
  wf := dot_S2097152x3_S3x64_S2097152x64_1_0_0_1_n_n_wf
def dot_S2097152x64_S64x64_S2097152x64_1_0_0_1_n_n : DotDims S2097152x64 S64x64 S2097152x64 where
  lhsContracting := [1]
  rhsContracting := [0]
  lhsNonContracting := [0]
  rhsNonContracting := [1]
  lhsBatch := []
  rhsBatch := []
  wf := dot_S2097152x64_S64x64_S2097152x64_1_0_0_1_n_n_wf
def dot_S2097152x64_S64x16_S2097152x16_1_0_0_1_n_n : DotDims S2097152x64 S64x16 S2097152x16 where
  lhsContracting := [1]
  rhsContracting := [0]
  lhsNonContracting := [0]
  rhsNonContracting := [1]
  lhsBatch := []
  rhsBatch := []
  wf := dot_S2097152x64_S64x16_S2097152x16_1_0_0_1_n_n_wf

class Facts : Prop extends Facts₀ where

variable [Facts]
-- ==== Proof.MlpSpec.lean ====
/-
  The mathematics of the certificate, with no program in sight.

  A four-layer perceptron applied to ONE point: the point is a vector of three extended reals, the three hidden
  layers have 64 neurons each and a rectifier (maximum with zero), the last layer is one linear neuron. Both
  programs compute this number for each of the 2097152 points; they differ only in how the points are laid out
  (rows of a [2097152, 3] array, or columns of its transpose cut into blocks of 32768) and in which factor of each
  product is written first. On the extended reals sums and products are commutative and associative with no
  finiteness condition, and nothing else is used.
-/
import Idealize.ShloMosaic.PureOps.Ideal
import Idealize.ShloMosaic.Lib.ValueIdx

noncomputable section

namespace Cert.MlpSpec

open Idealize.ShloMosaic Idealize.ShloMosaic.ValueIdx

/-- A matrix of extended reals with `a` rows and `b` columns. -/
abbrev Mat (a b : Nat) : Type := (⟨2, ![a, b]⟩ : Shape).Idx → EReal

/-- First hidden layer of one point `p`: neuron `i` is the rectified weighted sum of the point's three coordinates,
    the weights row `i` of `w1`. -/
def hidden1 (p : Fin 3 → EReal) (w1 : Mat 64 3) (i : Fin 64) : EReal :=
  max (∑ a : Fin 3, w1 (ix2 i a) * p a) 0

/-- Second hidden layer: neuron `j` is the rectified weighted sum of the first layer, the weights row `j` of `w2`. -/
def hidden2 (p : Fin 3 → EReal) (w1 : Mat 64 3) (w2 : Mat 64 64) (j : Fin 64) : EReal :=
  max (∑ i : Fin 64, w2 (ix2 j i) * hidden1 p w1 i) 0

/-- Third hidden layer: neuron `k` is the rectified weighted sum of the second layer, the weights row `k` of `w3`. -/
def hidden3 (p : Fin 3 → EReal) (w1 : Mat 64 3) (w2 w3 : Mat 64 64) (k : Fin 64) : EReal :=
  max (∑ j : Fin 64, w3 (ix2 k j) * hidden2 p w1 w2 j) 0

/-- The network's one output at the point `p`: the weighted sum of the third layer, the weights `wl`, no rectifier. -/
def mlp (p : Fin 3 → EReal) (w1 : Mat 64 3) (w2 w3 : Mat 64 64) (wl : Fin 64 → EReal) : EReal :=
  ∑ k : Fin 64, wl k * hidden3 p w1 w2 w3 k

/-- The result as a column [2097152, 1]: entry `(n, 0)` is the network at row `n` of `x`, the last layer's weights
    row 0 of the padded [16, 64] matrix `w4` (the other fifteen rows never reach the result). -/
def column (x : Mat 2097152 3) (w1 : Mat 64 3) (w2 w3 : Mat 64 64) (w4 : Mat 16 64) : Mat 2097152 1 :=
  fun i => mlp (fun a => x (ix2 (i 0) a)) w1 w2 w3 (fun k => w4 (ix2 0 k))

/-- The same numbers as a row [1, 2097152]: entry `(0, n)` is the network at row `n` of `x`. -/
def row (x : Mat 2097152 3) (w1 : Mat 64 3) (w2 w3 : Mat 64 64) (w4 : Mat 16 64) : Mat 1 2097152 :=
  fun i => mlp (fun a => x (ix2 (i 1) a)) w1 w2 w3 (fun k => w4 (ix2 0 k))

/-- The network depends on its five arguments only through their values. -/
theorem mlp_congr {p p' : Fin 3 → EReal} {w1 w1' : Mat 64 3} {w2 w2' w3 w3' : Mat 64 64} {wl wl' : Fin 64 → EReal}
    (hp : p = p') (h1 : w1 = w1') (h2 : w2 = w2') (h3 : w3 = w3') (hl : wl = wl') :
    mlp p w1 w2 w3 wl = mlp p' w1' w2' w3' wl' := by
  subst hp h1 h2 h3 hl; rfl

/-- Two indices of a matrix with the same row and the same column are equal. -/
theorem idx2_ext {a b : Nat} (u v : (⟨2, ![a, b]⟩ : Shape).Idx) (h0 : (u 0).val = (v 0).val) (h1 : (u 1).val = (v 1).val) :
    u = v :=
  funext fun d => Fin.ext (by
    match d with
    | ⟨0, _⟩ => exact h0
    | ⟨1, _⟩ => exact h1)

/-- Two matrices that agree at every pair of coordinates are equal. -/
theorem mat_ext {a b : Nat} {u v : Mat a b} (h : ∀ (r : Fin a) (s : Fin b), u (ix2 r s) = v (ix2 r s)) : u = v := by
  funext j
  rw [eq_ix2 j]
  exact h _ _

end Cert.MlpSpec

end
-- ==== Proof.KernelDots.lean ====
/-
  The kernel's three matrix products into a zero accumulator, read at one entry.

  Each product contracts the columns of a weight matrix W with the rows of an activation matrix H: entry (r, q) is
  the sum over the contraction index a of W (r, a) · H (a, q). The dimension records index the contraction by a
  one-axis shape; re-indexing that axis by `Fin K` turns the library's sum over the record's contraction indices into
  a plain sum over `a : Fin K`.
-/
import proofs.«173089_j36129264894175_2_alg».proof.Proof.Gen.KernelIdeal
import proofs.«173089_j36129264894175_2_alg».proof.Proof.MlpSpec
import Idealize.ShloMosaic.Lib.ValueIdx
import Idealize.ShloMosaic.PureOps.Ideal.Laws

noncomputable section

namespace Cert.KernelIdeal.Dots

open Cert.KernelIdeal Cert.KernelIdeal.Gen
open Idealize.ShloMosaic Idealize.ShloMosaic.ValueIdx Cert.MlpSpec

/-! ## [64, 3] times [3, 32768]: the first layer's weights times a block of points -/

theorem in_lhs0 (i : S64x32768.Idx) (q : dot_S64x3_S3x32768_S64x32768_1_0_0_1_n_n.contr.Idx) :
    (dot_S64x3_S3x32768_S64x32768_1_0_0_1_n_n.lhsIdx i q 0).val = (i 0).val := by
  unfold DotDims.lhsIdx
  rw [dif_neg (show ¬(0 : Fin S64x3.rank) ∈ dot_S64x3_S3x32768_S64x32768_1_0_0_1_n_n.lhsBatch by decide), dif_pos (show (0 : Fin S64x3.rank) ∈ dot_S64x3_S3x32768_S64x32768_1_0_0_1_n_n.lhsNonContracting by decide)]
  rfl
theorem in_lhs1 (i : S64x32768.Idx) (q : dot_S64x3_S3x32768_S64x32768_1_0_0_1_n_n.contr.Idx) :
    (dot_S64x3_S3x32768_S64x32768_1_0_0_1_n_n.lhsIdx i q 1).val = (q ⟨0, by decide⟩).val :=
  dot_S64x3_S3x32768_S64x32768_1_0_0_1_n_n.lhsIdx_val_of_single rfl i q
theorem in_rhs0 (i : S64x32768.Idx) (q : dot_S64x3_S3x32768_S64x32768_1_0_0_1_n_n.contr.Idx) :
    (dot_S64x3_S3x32768_S64x32768_1_0_0_1_n_n.rhsIdx i q 0).val = (q ⟨0, by decide⟩).val :=
  dot_S64x3_S3x32768_S64x32768_1_0_0_1_n_n.rhsIdx_val_of_single rfl i q
theorem in_rhs1 (i : S64x32768.Idx) (q : dot_S64x3_S3x32768_S64x32768_1_0_0_1_n_n.contr.Idx) :
    (dot_S64x3_S3x32768_S64x32768_1_0_0_1_n_n.rhsIdx i q 1).val = (i 1).val := by
  unfold DotDims.rhsIdx
  rw [dif_neg (show ¬(1 : Fin S3x32768.rank) ∈ dot_S64x3_S3x32768_S64x32768_1_0_0_1_n_n.rhsBatch by decide), dif_pos (show (1 : Fin S3x32768.rank) ∈ dot_S64x3_S3x32768_S64x32768_1_0_0_1_n_n.rhsNonContracting by decide)]
  rfl

/-- Entry (r, q) of W · H for W of 64 rows and 3 columns: the sum over the 3 columns of W. -/
theorem dotIn_apply (l : FVec Ideal S64x3 .bf16) (r : FVec Ideal S3x32768 .bf16) (i : Fin 64) (q : Fin 32768) :
    matmul dot_S64x3_S3x32768_S64x32768_1_0_0_1_n_n none l r (constant (F := Ideal) S64x32768 .f32 0x00000000#32) (ix2 i q)
      = ∑ a : Fin 3, l (ix2 i a) * r (ix2 a q) := by
  simp only [matmul]
  rw [Ideal.matmul_constant_zero_apply, ← Equiv.sum_comp (contrEquiv1 dot_S64x3_S3x32768_S64x32768_1_0_0_1_n_n 3 rfl rfl).symm]
  refine Finset.sum_congr rfl fun k _ => ?_
  have hk := contrEquiv1_symm_val dot_S64x3_S3x32768_S64x32768_1_0_0_1_n_n 3 rfl rfl k
  have el : dot_S64x3_S3x32768_S64x32768_1_0_0_1_n_n.lhsIdx (ix2 i q) ((contrEquiv1 dot_S64x3_S3x32768_S64x32768_1_0_0_1_n_n 3 rfl rfl).symm k) = ix2 i k :=
    idx2_ext _ _ (in_lhs0 _ _) ((in_lhs1 _ _).trans hk)
  have er : dot_S64x3_S3x32768_S64x32768_1_0_0_1_n_n.rhsIdx (ix2 i q) ((contrEquiv1 dot_S64x3_S3x32768_S64x32768_1_0_0_1_n_n 3 rfl rfl).symm k) = ix2 k q :=
    idx2_ext _ _ ((in_rhs0 _ _).trans hk) (in_rhs1 _ _)
  rw [el, er]

/-! ## [64, 64] times [64, 32768]: a hidden layer's weights times the layer before -/

theorem hid_lhs0 (i : S64x32768.Idx) (q : dot_S64x64_S64x32768_S64x32768_1_0_0_1_n_n.contr.Idx) :
    (dot_S64x64_S64x32768_S64x32768_1_0_0_1_n_n.lhsIdx i q 0).val = (i 0).val := by
  unfold DotDims.lhsIdx
  rw [dif_neg (show ¬(0 : Fin S64x64.rank) ∈ dot_S64x64_S64x32768_S64x32768_1_0_0_1_n_n.lhsBatch by decide), dif_pos (show (0 : Fin S64x64.rank) ∈ dot_S64x64_S64x32768_S64x32768_1_0_0_1_n_n.lhsNonContracting by decide)]
  rfl
theorem hid_lhs1 (i : S64x32768.Idx) (q : dot_S64x64_S64x32768_S64x32768_1_0_0_1_n_n.contr.Idx) :
    (dot_S64x64_S64x32768_S64x32768_1_0_0_1_n_n.lhsIdx i q 1).val = (q ⟨0, by decide⟩).val :=
  dot_S64x64_S64x32768_S64x32768_1_0_0_1_n_n.lhsIdx_val_of_single rfl i q
theorem hid_rhs0 (i : S64x32768.Idx) (q : dot_S64x64_S64x32768_S64x32768_1_0_0_1_n_n.contr.Idx) :
    (dot_S64x64_S64x32768_S64x32768_1_0_0_1_n_n.rhsIdx i q 0).val = (q ⟨0, by decide⟩).val :=
  dot_S64x64_S64x32768_S64x32768_1_0_0_1_n_n.rhsIdx_val_of_single rfl i q
theorem hid_rhs1 (i : S64x32768.Idx) (q : dot_S64x64_S64x32768_S64x32768_1_0_0_1_n_n.contr.Idx) :
    (dot_S64x64_S64x32768_S64x32768_1_0_0_1_n_n.rhsIdx i q 1).val = (i 1).val := by
  unfold DotDims.rhsIdx
  rw [dif_neg (show ¬(1 : Fin S64x32768.rank) ∈ dot_S64x64_S64x32768_S64x32768_1_0_0_1_n_n.rhsBatch by decide), dif_pos (show (1 : Fin S64x32768.rank) ∈ dot_S64x64_S64x32768_S64x32768_1_0_0_1_n_n.rhsNonContracting by decide)]
  rfl

/-- Entry (r, q) of W · H for a square W of 64 rows: the sum over the 64 columns of W. -/
theorem dotHidden_apply (l : FVec Ideal S64x64 .bf16) (r : FVec Ideal S64x32768 .bf16) (i : Fin 64) (q : Fin 32768) :
    matmul dot_S64x64_S64x32768_S64x32768_1_0_0_1_n_n none l r (constant (F := Ideal) S64x32768 .f32 0x00000000#32) (ix2 i q)
      = ∑ a : Fin 64, l (ix2 i a) * r (ix2 a q) := by
  simp only [matmul]
  rw [Ideal.matmul_constant_zero_apply, ← Equiv.sum_comp (contrEquiv1 dot_S64x64_S64x32768_S64x32768_1_0_0_1_n_n 64 rfl rfl).symm]
  refine Finset.sum_congr rfl fun k _ => ?_
  have hk := contrEquiv1_symm_val dot_S64x64_S64x32768_S64x32768_1_0_0_1_n_n 64 rfl rfl k
  have el : dot_S64x64_S64x32768_S64x32768_1_0_0_1_n_n.lhsIdx (ix2 i q) ((contrEquiv1 dot_S64x64_S64x32768_S64x32768_1_0_0_1_n_n 64 rfl rfl).symm k) = ix2 i k :=
    idx2_ext _ _ (hid_lhs0 _ _) ((hid_lhs1 _ _).trans hk)
  have er : dot_S64x64_S64x32768_S64x32768_1_0_0_1_n_n.rhsIdx (ix2 i q) ((contrEquiv1 dot_S64x64_S64x32768_S64x32768_1_0_0_1_n_n 64 rfl rfl).symm k) = ix2 k q :=
    idx2_ext _ _ ((hid_rhs0 _ _).trans hk) (hid_rhs1 _ _)
  rw [el, er]

/-! ## [1, 64] times [64, 32768]: the output neuron's weights times the third layer -/

theorem out_lhs0 (i : S1x32768.Idx) (q : dot_S1x64_S64x32768_S1x32768_1_0_0_1_n_n.contr.Idx) :
    (dot_S1x64_S64x32768_S1x32768_1_0_0_1_n_n.lhsIdx i q 0).val = (i 0).val := by
  unfold DotDims.lhsIdx
  rw [dif_neg (show ¬(0 : Fin S1x64.rank) ∈ dot_S1x64_S64x32768_S1x32768_1_0_0_1_n_n.lhsBatch by decide), dif_pos (show (0 : Fin S1x64.rank) ∈ dot_S1x64_S64x32768_S1x32768_1_0_0_1_n_n.lhsNonContracting by decide)]
  rfl
theorem out_lhs1 (i : S1x32768.Idx) (q : dot_S1x64_S64x32768_S1x32768_1_0_0_1_n_n.contr.Idx) :
    (dot_S1x64_S64x32768_S1x32768_1_0_0_1_n_n.lhsIdx i q 1).val = (q ⟨0, by decide⟩).val :=
  dot_S1x64_S64x32768_S1x32768_1_0_0_1_n_n.lhsIdx_val_of_single rfl i q
theorem out_rhs0 (i : S1x32768.Idx) (q : dot_S1x64_S64x32768_S1x32768_1_0_0_1_n_n.contr.Idx) :
    (dot_S1x64_S64x32768_S1x32768_1_0_0_1_n_n.rhsIdx i q 0).val = (q ⟨0, by decide⟩).val :=
  dot_S1x64_S64x32768_S1x32768_1_0_0_1_n_n.rhsIdx_val_of_single rfl i q
theorem out_rhs1 (i : S1x32768.Idx) (q : dot_S1x64_S64x32768_S1x32768_1_0_0_1_n_n.contr.Idx) :
    (dot_S1x64_S64x32768_S1x32768_1_0_0_1_n_n.rhsIdx i q 1).val = (i 1).val := by
  unfold DotDims.rhsIdx
  rw [dif_neg (show ¬(1 : Fin S64x32768.rank) ∈ dot_S1x64_S64x32768_S1x32768_1_0_0_1_n_n.rhsBatch by decide), dif_pos (show (1 : Fin S64x32768.rank) ∈ dot_S1x64_S64x32768_S1x32768_1_0_0_1_n_n.rhsNonContracting by decide)]
  rfl

/-- Entry (0, q) of w · H for a single row w of 64 weights: the sum over the 64 weights. -/
theorem dotOut_apply (l : FVec Ideal S1x64 .bf16) (r : FVec Ideal S64x32768 .bf16) (i : Fin 1) (q : Fin 32768) :
    matmul dot_S1x64_S64x32768_S1x32768_1_0_0_1_n_n none l r (constant (F := Ideal) S1x32768 .f32 0x00000000#32) (ix2 i q)
      = ∑ a : Fin 64, l (ix2 i a) * r (ix2 a q) := by
  simp only [matmul]
  rw [Ideal.matmul_constant_zero_apply, ← Equiv.sum_comp (contrEquiv1 dot_S1x64_S64x32768_S1x32768_1_0_0_1_n_n 64 rfl rfl).symm]
  refine Finset.sum_congr rfl fun k _ => ?_
  have hk := contrEquiv1_symm_val dot_S1x64_S64x32768_S1x32768_1_0_0_1_n_n 64 rfl rfl k
  have el : dot_S1x64_S64x32768_S1x32768_1_0_0_1_n_n.lhsIdx (ix2 i q) ((contrEquiv1 dot_S1x64_S64x32768_S1x32768_1_0_0_1_n_n 64 rfl rfl).symm k) = ix2 i k :=
    idx2_ext _ _ (out_lhs0 _ _) ((out_lhs1 _ _).trans hk)
  have er : dot_S1x64_S64x32768_S1x32768_1_0_0_1_n_n.rhsIdx (ix2 i q) ((contrEquiv1 dot_S1x64_S64x32768_S1x32768_1_0_0_1_n_n 64 rfl rfl).symm k) = ix2 k q :=
    idx2_ext _ _ ((out_rhs0 _ _).trans hk) (out_rhs1 _ _)
  rw [el, er]

end Cert.KernelIdeal.Dots

end
-- ==== Proof.KernelPayload.lean ====
/-
  What one grid step of the kernel stores, read at one lane.

  A grid step holds a block of 32768 points as the columns of a [3, 32768] matrix and the four weight matrices
  whole. Its one store is the last of four matrix products, W · H, each of the first three followed by a rectifier;
  the changes of float format in between are the identity on the extended reals, and the shape casts are casts to
  the same shape. Layer by layer, entry (r, q) of each activation matrix is the network's neuron r at the point in
  column q, so lane q of the stored row is the network of MlpSpec at that point.
-/
import proofs.«173089_j36129264894175_2_alg».proof.Proof.Gen.KernelIdeal.Skeleton
import proofs.«173089_j36129264894175_2_alg».proof.Proof.KernelDots
import Idealize.ShloMosaic.Lib.Pipeline.Value

noncomputable section

namespace Cert.KernelIdeal.Payload

open Cert.KernelIdeal Cert.KernelIdeal.Gen Cert.KernelIdeal.Dots
open Idealize.ShloMosaic Idealize.ShloMosaic.ValueIdx Cert.MlpSpec

variable (x0 : Vec Ideal S3x32768 .f32) (x1 : Vec Ideal S64x3 .bf16) (x2 x3 : Vec Ideal S64x64 .bf16) (x4 : Vec Ideal S1x64 .bf16)

/-- The first hidden layer of the whole block: rectified W₁ · X, X the block's points as columns. -/
def act1 : FVec Ideal S64x32768 .bf16 :=
  truncf .bf16 (maximumf
      (matmul dot_S64x3_S3x32768_S64x32768_1_0_0_1_n_n none (shapeCast S64x3 x1 shapeCasts_S64x3_S64x3 : FVec Ideal S64x3 .bf16)
        (truncf .bf16 (shapeCast S3x32768 x0 shapeCasts_S3x32768_S3x32768 : FVec Ideal S3x32768 .f32) bitsLt_bf16_f32)
        (constant S64x32768 .f32 0x00000000#32))
      (broadcast S64x32768 (Scalar.ofBits .f32 0x00000000#32))) bitsLt_bf16_f32

/-- The second hidden layer of the whole block: rectified W₂ · (first layer). -/
def act2 : FVec Ideal S64x32768 .bf16 :=
  truncf .bf16 (maximumf
      (matmul dot_S64x64_S64x32768_S64x32768_1_0_0_1_n_n none (shapeCast S64x64 x2 shapeCasts_S64x64_S64x64 : FVec Ideal S64x64 .bf16)
        (act1 x0 x1) (constant S64x32768 .f32 0x00000000#32))
      (broadcast S64x32768 (Scalar.ofBits .f32 0x00000000#32))) bitsLt_bf16_f32

/-- The third hidden layer of the whole block: rectified W₃ · (second layer). -/
def act3 : FVec Ideal S64x32768 .bf16 :=
  truncf .bf16 (maximumf
      (matmul dot_S64x64_S64x32768_S64x32768_1_0_0_1_n_n none (shapeCast S64x64 x3 shapeCasts_S64x64_S64x64 : FVec Ideal S64x64 .bf16)
        (act2 x0 x1 x2) (constant S64x32768 .f32 0x00000000#32))
      (broadcast S64x32768 (Scalar.ofBits .f32 0x00000000#32))) bitsLt_bf16_f32

/-- The stored row is the output neuron's weights times the third layer. -/
theorem pay_eq : k0_pay1 x0 x1 x2 x3 x4
    = matmul dot_S1x64_S64x32768_S1x32768_1_0_0_1_n_n none (shapeCast S1x64 x4 shapeCasts_S1x64_S1x64 : FVec Ideal S1x64 .bf16)
        (act3 x0 x1 x2 x3) (constant S1x32768 .f32 0x00000000#32) := rfl

/-- Entry (i, q) of the first layer is the network's first-layer neuron i at the point in column q. -/
theorem act1_apply (i : Fin 64) (q : Fin 32768) :
    act1 x0 x1 (ix2 i q) = hidden1 (fun a => x0 (ix2 a q)) x1 i := by
  unfold act1 hidden1
  show max (_ : EReal) _ = max _ _
  refine congrArg₂ max ((dotIn_apply _ _ i q).trans (Finset.sum_congr rfl fun a _ => ?_)) Ideal.ofBits_zero_f32
  exact congrArg₂ (· * ·) (congrFun (shapeCast_self x1 _) _) (congrFun (shapeCast_self x0 _) _)

/-- Entry (j, q) of the second layer is the network's second-layer neuron j at the point in column q. -/
theorem act2_apply (j : Fin 64) (q : Fin 32768) :
    act2 x0 x1 x2 (ix2 j q) = hidden2 (fun a => x0 (ix2 a q)) x1 x2 j := by
  unfold act2 hidden2
  show max (_ : EReal) _ = max _ _
  refine congrArg₂ max ((dotHidden_apply _ _ j q).trans (Finset.sum_congr rfl fun i _ => ?_)) Ideal.ofBits_zero_f32
  exact congrArg₂ (· * ·) (congrFun (shapeCast_self x2 _) _) (act1_apply x0 x1 i q)

/-- Entry (k, q) of the third layer is the network's third-layer neuron k at the point in column q. -/
theorem act3_apply (k : Fin 64) (q : Fin 32768) :
    act3 x0 x1 x2 x3 (ix2 k q) = hidden3 (fun a => x0 (ix2 a q)) x1 x2 x3 k := by
  unfold act3 hidden3
  show max (_ : EReal) _ = max _ _
  refine congrArg₂ max ((dotHidden_apply _ _ k q).trans (Finset.sum_congr rfl fun j _ => ?_)) Ideal.ofBits_zero_f32
  exact congrArg₂ (· * ·) (congrFun (shapeCast_self x3 _) _) (act2_apply x0 x1 x2 j q)

/-- Lane `y` of the stored row is the network at the point in column `y 1` of the block, the output neuron's
    weights the one row of the last weight block. -/
theorem pay_apply (y : S1x32768.Idx) :
    k0_pay1 x0 x1 x2 x3 x4 y = mlp (fun a => x0 (ix2 a (y 1))) x1 x2 x3 (fun k => x4 (ix2 0 k)) := by
  obtain ⟨p, q, rfl⟩ : ∃ (p : Fin 1) (q : Fin 32768), y = ix2 p q := ⟨y 0, y 1, eq_ix2 y⟩
  obtain rfl : p = 0 := Subsingleton.elim _ _
  rw [pay_eq]
  unfold mlp
  refine (dotOut_apply _ _ 0 q).trans (Finset.sum_congr rfl fun k _ => ?_)
  exact congrArg₂ (· * ·) (congrFun (shapeCast_self x4 _) _) (act3_apply x0 x1 x2 x3 k q)

end Cert.KernelIdeal.Payload

end
-- ==== Proof.KernelHost.lean ====
/-
  What the kernel's region finds in the five arrays its input windows read.

  Before the region the program transposes the points array (so that the points are the columns of a
  [3, 2097152] matrix), keeps row 0 of the padded last weight matrix, and changes the four weight matrices to a
  narrower float format, which is the identity on the extended reals. So entry (a, n) of the first window's array is
  coordinate a of point n, the three square or tall weight arrays are the argument matrices themselves, and the one
  row of the last window's array is row 0 of the last argument matrix.
-/
import proofs.«173089_j36129264894175_2_alg».proof.Proof.Gen.KernelIdeal.Frame
import proofs.«173089_j36129264894175_2_alg».proof.Proof.MlpSpec
import Idealize.ShloMosaic.Lib.StableHlo.Run
import Idealize.ShloMosaic.Lib.Pipeline.Value
import Idealize.ShloMosaic.Lib.ValueIdx

noncomputable section

namespace Cert.KernelIdeal.Host

open Cert.KernelIdeal Cert.KernelIdeal.Gen
open Idealize.ShloMosaic Idealize.ShloMosaic.TcCoe Idealize.SL.Sem Idealize.ShloMosaic.StableHlo
open Idealize.ShloMosaic.ValueIdx Cert.MlpSpec

variable (m : (ℓ : Loc nD τ sig) → Buf (Elt Ideal) ℓ)

/-- The first window's array is the transpose of the points. -/
theorem V_points (c : Dev nD) : (V m c main_v0 : S3x2097152.Idx → EReal)
    = transpose S3x2097152 [1, 0] (m ((c : Thread nD τ).loc main_arg0)) transposes_S2097152x3_S3x2097152_1_0 := by
  show StableHlo.after hostOps0 (fun b => m (c, b)) (Proc.devRef .tc main_v0) = _
  after_results <;> rfl

/-- The second window's array is the first weight matrix in the narrower format. -/
theorem V_w1 (c : Dev nD) : (V m c main_v2 : S64x3.Idx → EReal)
    = (truncf .bf16 (m ((c : Thread nD τ).loc main_arg1) : FVec Ideal S64x3 .f32) bitsLt_bf16_f32 : FVec Ideal S64x3 .bf16) := by
  show StableHlo.after hostOps0 (fun b => m (c, b)) (Proc.devRef .tc main_v2) = _
  after_results <;> rfl

/-- The third window's array is the second weight matrix in the narrower format. -/
theorem V_w2 (c : Dev nD) : (V m c main_v3 : S64x64.Idx → EReal)
    = (truncf .bf16 (m ((c : Thread nD τ).loc main_arg2) : FVec Ideal S64x64 .f32) bitsLt_bf16_f32 : FVec Ideal S64x64 .bf16) := by
  show StableHlo.after hostOps0 (fun b => m (c, b)) (Proc.devRef .tc main_v3) = _
  after_results <;> rfl

/-- The fourth window's array is the third weight matrix in the narrower format. -/
theorem V_w3 (c : Dev nD) : (V m c main_v4 : S64x64.Idx → EReal)
    = (truncf .bf16 (m ((c : Thread nD τ).loc main_arg3) : FVec Ideal S64x64 .f32) bitsLt_bf16_f32 : FVec Ideal S64x64 .bf16) := by
  show StableHlo.after hostOps0 (fun b => m (c, b)) (Proc.devRef .tc main_v4) = _
  after_results <;> rfl

/-- The fifth window's array is row 0 of the last weight matrix in the narrower format. -/
theorem V_w4 (c : Dev nD) : (V m c main_v5 : S1x64.Idx → EReal)
    = (truncf .bf16 (extractStridedSlice S1x64 ![0, 0] (m ((c : Thread nD τ).loc main_arg4)) slices_S16x64_S1x64_0_0 : FVec Ideal S1x64 .f32) bitsLt_bf16_f32 : FVec Ideal S1x64 .bf16) := by
  show StableHlo.after hostOps0 (fun b => m (c, b)) (Proc.devRef .tc main_v5) = _
  after_results <;> rfl

/-- Entry (a, n) of the transposed points is coordinate a of point n. -/
theorem V_points_apply (c : Dev nD) (j : S3x2097152.Idx) (k : S2097152x3.Idx) (h0 : (k 0).val = (j 1).val) (h1 : (k 1).val = (j 0).val) :
    (V m c main_v0 : S3x2097152.Idx → EReal) j = (m ((c : Thread nD τ).loc main_arg0) : S2097152x3.Idx → EReal) k := by
  refine (congrFun (V_points m c) j).trans ?_
  exact transpose_apply [1, 0] _ transposes_S2097152x3_S3x2097152_1_0 j k (fun b => match b with
    | ⟨0, _⟩ => h1
    | ⟨1, _⟩ => h0)

theorem V_w1_apply (c : Dev nD) (j : S64x3.Idx) :
    (V m c main_v2 : S64x3.Idx → EReal) j = (m ((c : Thread nD τ).loc main_arg1) : S64x3.Idx → EReal) j :=
  congrFun (V_w1 m c) j

theorem V_w2_apply (c : Dev nD) (j : S64x64.Idx) :
    (V m c main_v3 : S64x64.Idx → EReal) j = (m ((c : Thread nD τ).loc main_arg2) : S64x64.Idx → EReal) j :=
  congrFun (V_w2 m c) j

theorem V_w3_apply (c : Dev nD) (j : S64x64.Idx) :
    (V m c main_v4 : S64x64.Idx → EReal) j = (m ((c : Thread nD τ).loc main_arg3) : S64x64.Idx → EReal) j :=
  congrFun (V_w3 m c) j

/-- Entry (0, k) of the fifth window's array is entry (0, k) of the last weight matrix. -/
theorem V_w4_apply (c : Dev nD) (j : S1x64.Idx) (k : S16x64.Idx) (h0 : (k 0).val = (j 0).val) (h1 : (k 1).val = (j 1).val) :
    (V m c main_v5 : S1x64.Idx → EReal) j = (m ((c : Thread nD τ).loc main_arg4) : S16x64.Idx → EReal) k := by
  refine (congrFun (V_w4 m c) j).trans ?_
  exact extractStridedSlice_apply ![0, 0] _ slices_S16x64_S1x64_0_0 j k (fun a => match a with
    | ⟨0, _⟩ => by show (k 0).val = 0 + (j 0).val; omega
    | ⟨1, _⟩ => by show (k 1).val = 0 + (j 1).val; omega)

end Cert.KernelIdeal.Host

end
-- ==== Proof.KernelBlocks.lean ====
/-
  From the kernel's 64 grid steps to the whole output row.

  Step t reads columns t·32768 … t·32768 + 32767 of the transposed points (the other four windows are the whole
  weight arrays at every step) and writes back columns t·32768 … t·32768 + 32767 of the [1, 2097152] output row.
  Lane q of what it writes is the network at point t·32768 + q (KernelPayload, with the block reads below), which
  is entry (0, t·32768 + q) of the network's row of the argument arrays; column n is written by step n / 32768, so
  the 64 blocks cover the row and it ends holding the network's row.
-/
import proofs.«173089_j36129264894175_2_alg».proof.Proof.Gen.KernelIdeal.Frame
import proofs.«173089_j36129264894175_2_alg».proof.Proof.KernelPayload
import proofs.«173089_j36129264894175_2_alg».proof.Proof.KernelHost
import Idealize.ShloMosaic.Lib.Pipeline.Value

noncomputable section

namespace Cert.KernelIdeal.Blocks

open Cert.KernelIdeal Cert.KernelIdeal.Gen Cert.KernelIdeal.Payload Cert.KernelIdeal.Host
open Idealize.ShloMosaic Idealize.ShloMosaic.TcCoe Idealize.SL.Sem
open Idealize.ShloMosaic.Pipeline (Dat)
open Idealize.ShloMosaic.ValueIdx Cert.MlpSpec

variable (m : (ℓ : Loc nD τ sig) → Buf (Elt Ideal) ℓ)

theorem hz : (![0, 0] : Fin 2 → Nat) = fun _ => 0 := funext fun a => by fin_cases a <;> rfl

/-- The network's row of the argument arrays as the program was launched with them. -/
abbrev outRow (c : Dev nD) : S1x2097152.Idx → EReal :=
  row (m ((c : Thread nD τ).loc main_arg0)) (m ((c : Thread nD τ).loc main_arg1)) (m ((c : Thread nD τ).loc main_arg2))
    (m ((c : Thread nD τ).loc main_arg3)) (m ((c : Thread nD τ).loc main_arg4))

/-- The two windows that move with the grid: at step t both sit at block (0, t). -/
theorem moving_idx : ∀ t : Fin cfg0.N, win0_0.index t (0 : Fin 2) = 0 ∧ win0_0.index t (1 : Fin 2) = t.val
    ∧ win0_5.index t (0 : Fin 2) = 0 ∧ win0_5.index t (1 : Fin 2) = t.val :=
  (by decide +kernel : ∀ t : Fin grid0.N, _)

/-- The four weight windows stay at block (0, 0). -/
theorem resident_idx : ∀ t : Fin cfg0.N, win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-! ## The input blocks, read -/

/-- Column q of the points block at step t holds point number n = t·32768 + q. -/
theorem points_block (c : Dev nD) (t : Fin cfg0.N) (a : Fin 3) (q : Fin 32768) (n : Fin 2097152)
    (hn : n.val = t.val * 32768 + q.val) :
    (iblk m c 0 t : Vec Ideal S3x32768 .f32) (ix2 a q)
      = (m ((c : Thread nD τ).loc main_arg0) : S2097152x3.Idx → EReal) (ix2 n a) := by
  obtain ⟨e0, e1, -, -⟩ := moving_idx t
  show (V m c main_v0 : S3x2097152.Idx → EReal) (((cfg0.win 0).blk t).view.emb (ix2 a q)) = _
  refine V_points_apply m c _ (ix2 n a) ?_ ?_
  · show n.val = win0_0.index t (1 : Fin 2) * 32768 + 1 * q.val
    rw [e1, hn, Nat.one_mul]
  · show a.val = win0_0.index t (0 : Fin 2) * 3 + 1 * a.val
    rw [e0, Nat.zero_mul, Nat.zero_add, Nat.one_mul]

/-- The first weight block is the first weight matrix. -/
theorem w1_block (c : Dev nD) (t : Fin cfg0.N) (i : Fin 64) (a : Fin 3) :
    (iblk m c 1 t : Vec Ideal S64x3 .bf16) (ix2 i a)
      = (m ((c : Thread nD τ).loc main_arg1) : S64x3.Idx → EReal) (ix2 i a) := by
  obtain ⟨e0, e1, -⟩ := resident_idx t
  show (V m c main_v2 : S64x3.Idx → EReal) (((cfg0.win 1).blk t).view.emb (ix2 i a)) = _
  refine (V_w1_apply m c _).trans (congrArg (m ((c : Thread nD τ).loc main_arg1) : S64x3.Idx → EReal) (idx2_ext (a := 64) (b := 3) _ _ ?_ ?_))
  · show win0_1.index t (0 : Fin 2) * 64 + 1 * i.val = i.val
    omega
  · show win0_1.index t (1 : Fin 2) * 3 + 1 * a.val = a.val
    omega

/-- The second weight block is the second weight matrix. -/
theorem w2_block (c : Dev nD) (t : Fin cfg0.N) (j i : Fin 64) :
    (iblk m c 2 t : Vec Ideal S64x64 .bf16) (ix2 j i)
      = (m ((c : Thread nD τ).loc main_arg2) : S64x64.Idx → EReal) (ix2 j i) := by
  obtain ⟨-, -, e0, e1, -⟩ := resident_idx t
  show (V m c main_v3 : S64x64.Idx → EReal) (((cfg0.win 2).blk t).view.emb (ix2 j i)) = _
  refine (V_w2_apply m c _).trans (congrArg (m ((c : Thread nD τ).loc main_arg2) : S64x64.Idx → EReal) (idx2_ext (a := 64) (b := 64) _ _ ?_ ?_))
  · show win0_2.index t (0 : Fin 2) * 64 + 1 * j.val = j.val
    omega
  · show win0_2.index t (1 : Fin 2) * 64 + 1 * i.val = i.val
    omega

/-- The third weight block is the third weight matrix. -/
theorem w3_block (c : Dev nD) (t : Fin cfg0.N) (k j : Fin 64) :
    (iblk m c 3 t : Vec Ideal S64x64 .bf16) (ix2 k j)
      = (m ((c : Thread nD τ).loc main_arg3) : S64x64.Idx → EReal) (ix2 k j) := by
  obtain ⟨-, -, -, -, e0, e1, -⟩ := resident_idx t
  show (V m c main_v4 : S64x64.Idx → EReal) (((cfg0.win 3).blk t).view.emb (ix2 k j)) = _
  refine (V_w3_apply m c _).trans (congrArg (m ((c : Thread nD τ).loc main_arg3) : S64x64.Idx → EReal) (idx2_ext (a := 64) (b := 64) _ _ ?_ ?_))
  · show win0_3.index t (0 : Fin 2) * 64 + 1 * k.val = k.val
    omega
  · show win0_3.index t (1 : Fin 2) * 64 + 1 * j.val = j.val
    omega

/-- The last weight block's one row is row 0 of the last weight matrix. -/
theorem w4_block (c : Dev nD) (t : Fin cfg0.N) (k : Fin 64) :
    (iblk m c 4 t : Vec Ideal S1x64 .bf16) (ix2 0 k)
      = (m ((c : Thread nD τ).loc main_arg4) : S16x64.Idx → EReal) (ix2 0 k) := by
  obtain ⟨-, -, -, -, -, -, e0, e1⟩ := resident_idx t
  show (V m c main_v5 : S1x64.Idx → EReal) (((cfg0.win 4).blk t).view.emb (ix2 0 k)) = _
  refine V_w4_apply m c _ (ix2 0 k) ?_ ?_
  · show 0 = win0_4.index t (0 : Fin 2) * 1 + 1 * 0
    omega
  · show k.val = win0_4.index t (1 : Fin 2) * 64 + 1 * k.val
    omega

/-! ## What a step writes back, the cover, the row -/

/-- What step t writes back is block t of the network's row. -/
theorem flushed_eq (c : Dev nD) (t : Fin cfg0.N) :
    (dats m 0 c).flushed 5 t = ((cfg0.win 5).blk t).view.read (Elt Ideal) (outRow m c) := by
  show (cfg0.win 5).cut (grid0.coords t) ((dats m 0 c).after 5 t) = _
  rw [after0_5]
  unfold out0_5
  rw [View.canon_unit_zero hz]
  simp only [View.ld_unit_zero (S := S3x32768) hz, View.ld_unit_zero (S := S64x3) hz, View.ld_unit_zero (S := S64x64) hz,
    View.ld_unit_zero (S := S1x64) hz]
  obtain ⟨-, -, e0, e1⟩ := moving_idx t
  funext j
  show k0_pay1 (iblk m c 0 t) (iblk m c 1 t) (iblk m c 2 t) (iblk m c 3 t) (iblk m c 4 t) j
    = outRow m c (((cfg0.win 5).blk t).view.emb j)
  refine (pay_apply (iblk m c 0 t) (iblk m c 1 t) (iblk m c 2 t) (iblk m c 3 t) (iblk m c 4 t) j).trans ?_
  unfold outRow row
  refine mlp_congr (funext fun a => ?_) (mat_ext fun i a => ?_) (mat_ext fun j' i => ?_) (mat_ext fun k j' => ?_)
    (funext fun k => ?_)
  · refine points_block m c t a (j 1) _ ?_
    show win0_5.index t (1 : Fin 2) * 32768 + 1 * (j 1).val = t.val * 32768 + (j 1).val
    rw [e1, Nat.one_mul]
  · exact w1_block m c t i a
  · exact w2_block m c t j' i
  · exact w3_block m c t k j'
  · exact w4_block m c t k

/-- A column of the row is in step t's block iff it is one of the 32768 columns from t·32768 on. -/
theorem mem_blk (t : Fin cfg0.N) (i : S1x2097152.Idx) :
    i ∈ ((cfg0.win 5).blk t).view.set ↔ ∀ a : Fin 2, win0_5.index t a * S1x32768.size a ≤ (i a).val
      ∧ (i a).val < win0_5.index t a * S1x32768.size a + S1x32768.size a := by
  show i ∈ ((View.whole main_v6).slice (win0_5.rect t)).set ↔ _
  rw [View.set_slice_whole, Rect.mem_set_unit]
  exact Iff.rfl

/-- Column n is written by step n / 32768. -/
theorem cover (i : S1x2097152.Idx) :
    ∃ t : Fin cfg0.N, (cfg0.win 5).flush t = true ∧ i ∈ ((cfg0.win 5).blk t).view.set := by
  have hN : cfg0.N = 64 := N_0
  have hi0 : (i 0).val < 1 := (i 0).isLt
  have hi1 : (i 1).val < 2097152 := (i 1).isLt
  have ht : (i 1).val / 32768 < cfg0.N := by rw [hN]; omega
  obtain ⟨-, -, e0, e1⟩ := moving_idx ⟨(i 1).val / 32768, ht⟩
  refine ⟨⟨(i 1).val / 32768, ht⟩, flush0_5 _, ?_⟩
  rw [mem_blk]
  intro a
  match a with
  | ⟨0, _⟩ =>
    show win0_5.index ⟨(i 1).val / 32768, ht⟩ (0 : Fin 2) * 1 ≤ (i 0).val
      ∧ (i 0).val < win0_5.index ⟨(i 1).val / 32768, ht⟩ (0 : Fin 2) * 1 + 1
    omega
  | ⟨1, _⟩ =>
    show win0_5.index ⟨(i 1).val / 32768, ht⟩ (1 : Fin 2) * 32768 ≤ (i 1).val
      ∧ (i 1).val < win0_5.index ⟨(i 1).val / 32768, ht⟩ (1 : Fin 2) * 32768 + 32768
    have e1' : win0_5.index ⟨(i 1).val / 32768, ht⟩ (1 : Fin 2) = (i 1).val / 32768 := e1
    omega

/-- After the 64 steps the output row holds the network's row. -/
theorem final (c : Dev nD) : (dats m 0 c).arrAt 5 cfg0.N = outRow m c :=
  (dats m 0 c).arrAt_eq_of_cover 5 (outRow m c) (fun t _ => flushed_eq m c t) (fun i => cover i)

end Cert.KernelIdeal.Blocks

end
-- ==== Proof.KernelRun.lean ====
/-
  The kernel program's run, read: its result array holds the network's column.

  After the region the program reshapes the [1, 2097152] output row into the [2097152, 1] result column; a reshape
  keeps row-major positions, and entry (0, n) of the row and entry (n, 0) of the column both sit at position n, so the
  column's entry (n, 0) is the network at point n.
-/
import proofs.«173089_j36129264894175_2_alg».proof.Proof.Gen.KernelIdeal.Frame
import proofs.«173089_j36129264894175_2_alg».proof.Proof.KernelBlocks
import Idealize.ShloMosaic.Lib.StableHlo.Run
import Idealize.ShloMosaic.Lib.Pipeline.Value

noncomputable section

namespace Cert.KernelIdeal.Run

open Cert.KernelIdeal Cert.KernelIdeal.Gen Cert.KernelIdeal.Blocks
open Idealize.ShloMosaic Idealize.ShloMosaic.TcCoe Idealize.SL.Sem Idealize.ShloMosaic.StableHlo
open Idealize.ShloMosaic.ValueIdx Cert.MlpSpec

variable (m : (ℓ : Loc nD τ sig) → Buf (Elt Ideal) ℓ) (ρ : Dev nD → PrngReg)

/-- The network's column of the argument arrays as the program was launched with them. -/
abbrev outColumn (c : Dev nD) : S2097152x1.Idx → EReal :=
  column (m ((c : Thread nD τ).loc main_arg0)) (m ((c : Thread nD τ).loc main_arg1)) (m ((c : Thread nD τ).loc main_arg2))
    (m ((c : Thread nD τ).loc main_arg3)) (m ((c : Thread nD τ).loc main_arg4))

/-- The reshape of the network's row is the network's column. -/
theorem reshape_row (c : Dev nD) :
    shapeCast S2097152x1 (outRow m c) shapeCasts_S1x2097152_S2097152x1 = outColumn m c := by
  funext i
  refine (shapeCast_apply (outRow m c) shapeCasts_S1x2097152_S2097152x1 i (ix2 0 (i 0)) ?_).trans rfl
  rw [Shape.rowMajor_val_two, Shape.rowMajor_val_two]
  have h1 : (i 1).val < 1 := (i 1).isLt
  show 0 * 2097152 + (i 0).val = (i 0).val * 1 + (i 1).val
  omega

/-- What the result buffer holds after the reshape that follows the region. -/
theorem tail_eq (c : Dev nD) :
    Pipeline.afterTail₀ cfgs (dats m) 0 (V0 m) [hostOps1] c main_v7 = outColumn m c := by
  unfold Pipeline.afterTail₀
  show StableHlo.after hostOps1 _ (Proc.devRef .tc main_v7) = _
  after_results
  have e : Pipeline.withArrays (cfgs 0).spec c (V0 m c) (fun w => (dats m 0 c).arrAt w (cfgs 0).N) (Proc.devRef .tc main_v6)
      = outRow m c :=
    (Pipeline.withArrays_arr spec0 launch0.win.arr_inj c _ _ 5).trans (final m c)
  rw [e]
  exact reshape_row m c

/-- The run of the kernel program, read: every weakly fair execution terminates with the result array at the
    network's column of the argument arrays, and the argument arrays unchanged. -/
theorem run : θ_run defs (onTc (τ := τ) (main (F := Ideal))) ⟨m, fun _ => 0, ρ⟩ fun r => ∀ c : Dev nD,
      r.2.mem ((c.tc : Thread nD τ).loc main_v7) = outColumn m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v7 (Pipeline.mem_restRefs_of main_v7 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Run

end
-- ==== Proof.RefIsMlp.lean ====
/-
  The reference program's result, read one operation at a time, is the network of MlpSpec applied to each row of the
  points array.

  The reference multiplies the points (and then each hidden layer) on the left by the TRANSPOSED weight matrix:
  entry (n, i) of a product is the sum over a of h (n, a) · Wᵀ (a, i) = h (n, a) · W (i, a). Swapping the two factors
  of every product gives the network's weighted sums; the rectifier is a maximum with the zero constant; the final
  slice keeps column 0 of the sixteen output columns, which is the weighted sum with row 0 of the last matrix.
-/
import proofs.«173089_j36129264894175_2_alg».proof.Proof.Gen.ReferenceIdeal.Read
import proofs.«173089_j36129264894175_2_alg».proof.Proof.MlpSpec
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx Cert.MlpSpec

variable (x0 : (⟨S2097152x3, .f32⟩ : BufTy).Contents (Elt Ideal)) (x1 : (⟨S64x3, .f32⟩ : BufTy).Contents (Elt Ideal))
  (x2 x3 : (⟨S64x64, .f32⟩ : BufTy).Contents (Elt Ideal)) (x4 : (⟨S16x64, .f32⟩ : BufTy).Contents (Elt Ideal))

/-- After the first rectifier, entry (n, i) is the first hidden layer's neuron i at row n of the points. -/
theorem ref_hidden1 (n : Fin 2097152) (i : Fin 64) :
    val_main_v2 (F := Ideal) x0 x1 (ix2 n i) = hidden1 (fun a => x0 (ix2 n a)) x1 i := by
  rw [val_main_v2_apply, val_main_v1_apply, val_main_call0_v0_apply, val_main_call0_cst_apply]
  unfold hidden1
  show max _ _ = max _ _
  refine congrArg₂ max (Finset.sum_congr rfl fun a _ => ?_) Ideal.ofBits_zero_f32
  rw [val_main_v0_apply]
  refine (mul_comm _ _).trans ?_
  exact congrArg₂ (· * ·) (congrArg x1 (idx2_ext _ _ rfl rfl)) (congrArg x0 (idx2_ext _ _ rfl rfl))

/-- After the second rectifier, entry (n, j) is the second hidden layer's neuron j at row n. -/
theorem ref_hidden2 (n : Fin 2097152) (j : Fin 64) :
    val_main_v5 (F := Ideal) x0 x1 x2 (ix2 n j) = hidden2 (fun a => x0 (ix2 n a)) x1 x2 j := by
  rw [val_main_v5_apply, val_main_v4_apply, val_main_call1_v0_apply, val_main_call1_cst_apply]
  unfold hidden2
  show max _ _ = max _ _
  refine congrArg₂ max (Finset.sum_congr rfl fun i _ => ?_) Ideal.ofBits_zero_f32
  rw [val_main_v3_apply]
  refine (mul_comm _ _).trans ?_
  refine congrArg₂ (· * ·) (congrArg x2 (idx2_ext _ _ rfl rfl)) ?_
  rw [show lidx_main_v4 (ix2 n j) i = ix2 n i from idx2_ext _ _ rfl rfl]
  exact ref_hidden1 x0 x1 n i

/-- After the third rectifier, entry (n, k) is the third hidden layer's neuron k at row n. -/
theorem ref_hidden3 (n : Fin 2097152) (k : Fin 64) :
    val_main_v8 (F := Ideal) x0 x1 x2 x3 (ix2 n k) = hidden3 (fun a => x0 (ix2 n a)) x1 x2 x3 k := by
  rw [val_main_v8_apply, val_main_v7_apply, val_main_call2_v0_apply, val_main_call2_cst_apply]
  unfold hidden3
  show max _ _ = max _ _
  refine congrArg₂ max (Finset.sum_congr rfl fun j _ => ?_) Ideal.ofBits_zero_f32
  rw [val_main_v6_apply]
  refine (mul_comm _ _).trans ?_
  refine congrArg₂ (· * ·) (congrArg x3 (idx2_ext _ _ rfl rfl)) ?_
  rw [show lidx_main_v7 (ix2 n k) j = ix2 n j from idx2_ext _ _ rfl rfl]
  exact ref_hidden2 x0 x1 x2 n j

/-- The reference's result array is the network's column: the last product's column 0, which the slice keeps, is the
    weighted sum of the third layer with row 0 of the last weight matrix. -/
theorem ref_column : val_main_v11 (F := Ideal) x0 x1 x2 x3 x4 = column x0 x1 x2 x3 x4 := by
  funext i
  rw [val_main_v11_apply, val_main_v10_apply]
  unfold column mlp
  refine Finset.sum_congr rfl fun k _ => ?_
  rw [val_main_v9_apply]
  refine (mul_comm _ _).trans ?_
  have hi1 : (i 1).val = 0 := by have h : (i 1).val < 1 := (i 1).isLt; omega
  refine congrArg₂ (· * ·) (congrArg x4 (idx2_ext _ _ hi1 rfl)) ?_
  rw [show lidx_main_v10 (idx_main_v11 i) k = ix2 (i 0) k from idx2_ext _ _ rfl rfl]
  exact ref_hidden3 x0 x1 x2 x3 (i 0) k

end Cert.ReferenceIdeal.RefValue

end
-- ==== Proof.lean ====
/-
  The certificate's five claims.

  Both idealized programs evaluate one four-layer perceptron (three rectified hidden layers of 64 neurons, one linear
  output neuron) at each of 2097152 points of three coordinates. The reference multiplies the points array, row by
  row, by the transposed weight matrices and keeps column 0 of the last product. The kernel transposes the points,
  walks the columns in 64 blocks of 32768, multiplies the weight matrices by each block, writes a [1, 2097152] row and
  reshapes it to a column. Entry (n, 0) of both results is the network at point n: the two differ in the order of the
  factors of each product and in the layout, and on the extended reals products commute, so no finiteness of the
  inputs is used. The three frames are the generated ones (the reference's is its generated run with the result
  dropped); the idealization rewrote nothing, so that claim is trivial.
-/
import proofs.«173089_j36129264894175_2_alg».proof.Defs
import proofs.«173089_j36129264894175_2_alg».proof.Proof.Gen.Kernel
import proofs.«173089_j36129264894175_2_alg».proof.Proof.Gen.Kernel.Skeleton
import proofs.«173089_j36129264894175_2_alg».proof.Proof.Gen.Kernel.Launch
import proofs.«173089_j36129264894175_2_alg».proof.Proof.Gen.Kernel.Points
import proofs.«173089_j36129264894175_2_alg».proof.Proof.Gen.Kernel.Frame
import proofs.«173089_j36129264894175_2_alg».proof.Proof.Gen.KernelIdeal
import proofs.«173089_j36129264894175_2_alg».proof.Proof.Gen.KernelIdeal.Skeleton
import proofs.«173089_j36129264894175_2_alg».proof.Proof.Gen.KernelIdeal.Launch
import proofs.«173089_j36129264894175_2_alg».proof.Proof.Gen.KernelIdeal.Points
import proofs.«173089_j36129264894175_2_alg».proof.Proof.Gen.KernelIdeal.Frame
import proofs.«173089_j36129264894175_2_alg».proof.Proof.Gen.ReferenceIdeal
import proofs.«173089_j36129264894175_2_alg».proof.Proof.Gen.ReferenceIdeal.Run
import proofs.«173089_j36129264894175_2_alg».proof.Proof.Gen.ReferenceIdeal.Read
import proofs.«173089_j36129264894175_2_alg».proof.Proof.Gen.Pre_finite_inputs
import proofs.«173089_j36129264894175_2_alg».proof.Proof.KernelRun
import proofs.«173089_j36129264894175_2_alg».proof.Proof.RefIsMlp
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- From memories that agree on the five arguments both programs end with the network's column of those
    arguments in their result arrays. -/
theorem algebraic : Cert.algebraic_KernelIdeal_ReferenceIdeal := by
  intro m ρ m' ρ' _ hagree
  refine ⟨fun c => Cert.KernelIdeal.Run.outColumn m c, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  rw [Cert.ReferenceIdeal.Read.val_main_v11_eq, Cert.ReferenceIdeal.RefValue.ref_column, a0, a1, a2, a3, a4]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
